-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000 : Shape := ⟨1, ![50000]⟩
abbrev S1x256 : Shape := ⟨2, ![1, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S256x10 .f32) (main_arg8 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x10 .f32 := Host.absf main_arg7
  let main_cst_6 : FVec F S_ .f32 := constant S_ .f32 0x7F800000#32
  let main_v20 : FVec F S256x10 .f32 := broadcastInDim S256x10 ![] bcast_S_S256x10 main_cst_6
  let main_v21 : IVec S256x10 1 := cmpf .olt main_v19 main_v20
  let main_c_7 : IVec S_ 1 := constantI S_ 1 1#1
  let main_v22 : IVec S_ 1 := (fun x v => Host.reduce IntOp.andi x v reducesTo_S256x10_S_d0_1 h_S_) main_v21 main_c_7
  let main_v23 : IVec S_ 1 := andi main_v18 main_v22
  let main_v24 : FVec F S10 .f32 := Host.absf main_arg8
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : IVec S800000 32) (main_arg1 : IVec S800000 32) (main_arg2 : IVec S50000 32) (main_arg3 : FVec F S1x256 .f32) (main_arg4 : FVec F S256 .f32) (main_arg5 : FVec F S256x256 .f32) (main_arg6 : FVec F S256 .f32) (main_arg7 : FVec F S256x10 .f32) (main_arg8 : FVec F S10 .f32) : IVec S_ 1 :=
  let main_v0 : FVec F S1x256 .f32 := Host.absf main_arg3
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_c : IVec S_ 1 := constantI S_ 1 1#1
  let main_v3 : IVec S_ 1 := (fun x v => Host.reduce IntOp.andi x v reducesTo_S1x256_S_d0_1 h_S_) main_v2 main_c
  let main_v4 : FVec F S256 .f32 := Host.absf main_arg4
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x256 .f32 := Host.absf main_arg5
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_v13 main_v16
-- ==== Kernel.lean ====
abbrev S800000 : Shape := ⟨1, ![800000]⟩
abbrev S50000 : Shape := ⟨1, ![50000]⟩
abbrev S1x256 : Shape := ⟨2, ![1, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S5000x1 : Shape := ⟨2, ![5000, 1]⟩
abbrev S5000x256 : Shape := ⟨2, ![5000, 256]⟩
abbrev S800000x256 : Shape := ⟨2, ![800000, 256]⟩
abbrev S16 : Shape := ⟨1, ![16]⟩
abbrev S16x256 : Shape := ⟨2, ![16, 256]⟩
abbrev S16x1 : Shape := ⟨2, ![16, 1]⟩
abbrev S1x10 : Shape := ⟨2, ![1, 10]⟩
abbrev S16x10 : Shape := ⟨2, ![16, 10]⟩

abbrev nBuf : Space → Nat
  | .hbm => 88
  | .vmem => 16
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000, .i32⟩
  | .hbm, ⟨3, _⟩ => ⟨S1x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x1, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x1, .f32⟩
  | .hbm, ⟨44, _⟩ => ⟨S_, .f32⟩
  | .hbm, ⟨45, _⟩ => ⟨S50000x1, .f32⟩
  | .hbm, ⟨46, _⟩ => ⟨S800000x1, .i32⟩
  | .hbm, ⟨47, _⟩ => ⟨S50000x1, .f32⟩
  | .hbm, ⟨48, _⟩ => ⟨S50000x1, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S16, .f32⟩
  | .hbm, ⟨74, _⟩ => ⟨S50000x1, .i32⟩
  | .hbm, ⟨75, _⟩ => ⟨S16, .f32⟩
  | .hbm, ⟨76, _⟩ => ⟨S_, .f32⟩
  | .hbm, ⟨77, _⟩ => ⟨S16x256, .f32⟩
  | .hbm, ⟨78, _⟩ => ⟨S50000x1, .i32⟩
  | .hbm, ⟨79, _⟩ => ⟨S16x256, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S16x1, .f32⟩
  | .hbm, ⟨84, _⟩ => ⟨S16x256, .f32⟩
  | .hbm, ⟨85, _⟩ => ⟨S16x256, .f32⟩
  | .hbm, ⟨86, _⟩ => ⟨S1x10, .f32⟩
  | .hbm, ⟨87, _⟩ => ⟨S16x10, .f32⟩
  | .local _ .vmem, ⟨0, _⟩ => ⟨S5000x1, .f32⟩
  | .local _ .vmem, ⟨1, _⟩ => ⟨S5000x1, .f32⟩
  | .local _ .vmem, ⟨2, _⟩ => ⟨S1x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S16x256, .f32⟩
  | .local _ .vmem, ⟨13, _⟩ => ⟨S256x10, .f32⟩
  | .local _ .vmem, ⟨14, _⟩ => ⟨S1x10, .f32⟩
  | .local _ .vmem, ⟨15, _⟩ => ⟨S16x10, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S16x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  shapeCasts_S256_S1x256 : S256.ShapeCasts S1x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S16 : S_.BroadcastsInDim S16 (![] : Fin 0 → Fin S16.rank)
  bcast_S_S16x256 : S_.BroadcastsInDim S16x256 (![] : Fin 0 → Fin S16x256.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  shapeCasts_S10_S1x10 : S10.ShapeCasts S1x10
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16x10 : S1x10.Broadcasts S16x10
  inb_S16x10_S16x10_0_0 : ∀ a, (![0, 0] : Fin 2 → Nat) a + S16x10.size a ≤ S16x10.size a
  h_S16x10 : 0 < S16x10.numel
  scatter_S50000_S800000x1_S800000_n_0_0_1_wf : ScatterDims.WF S50000 S800000x1 S800000 [] [0] [0] 1
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S5000x1_S1x256_S5000x256_1_0_0_1_n_n_wf : DotDims.WF S5000x1 S1x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S16_S50000x1_S50000_n_0_0_1_wf : ScatterDims.WF S16 S50000x1 S50000 [] [0] [0] 1
  scatter_S16x256_S50000x1_S50000x256_1_0_0_1_wf : ScatterDims.WF S16x256 S50000x1 S50000x256 [1] [0] [0] 1
  dot_S16x256_S256x10_S16x10_1_0_0_1_n_n_wf : DotDims.WF S16x256 S256x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S16x256.size a ≤ S16x256.size a
  hwx2_0 : ∀ i : grid2.Coords, EltTy.bits .f32 = 32 ∨ (Rect.block (s := S16x256) S16x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x10.size a ≤ S256x10.size a
  hwx2_1 : ∀ i : grid2.Coords, EltTy.bits .f32 = 32 ∨ (Rect.block (s := S256x10) S256x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S16x10.size a ≤ S16x10.size a
  hwx2_3 : ∀ i : grid2.Coords, EltTy.bits .f32 = 32 ∨ (Rect.block (s := S16x10) S16x10.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x1_S1x256_S5000x256_1_0_0_1_n_n : DotDims S5000x1 S1x256 S5000x256 where
  lhsContracting := [1]
  rhsContracting := [0]
  lhsNonContracting := [0]
  rhsNonContracting := [1]
  lhsBatch := []
  rhsBatch := []
  wf := dot_S5000x1_S1x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def scatter_S16x256_S50000x1_S50000x256_1_0_0_1 : ScatterDims S16x256 S50000x1 S50000x256 where
  updateWindowDims := [1]
  insertedWindowDims := [0]
  scatterDimsToOperandDims := [0]
  indexVectorDim := 1
  wf := scatter_S16x256_S50000x1_S50000x256_1_0_0_1_wf
def dot_S16x256_S256x10_S16x10_1_0_0_1_n_n : DotDims S16x256 S256x10 S16x10 where
  lhsContracting := [1]
  rhsContracting := [0]
  lhsNonContracting := [0]
  rhsNonContracting := [1]
  lhsBatch := []
  rhsBatch := []
  wf := dot_S16x256_S256x10_S16x10_1_0_0_1_n_n_wf

abbrev win0_0 : Pipeline.Window sig grid0 :=
  Pipeline.Window.ofSpec (Memref.whole main_v29) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S16x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S16x10.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S800000 : Shape := ⟨1, ![800000]⟩
abbrev S50000 : Shape := ⟨1, ![50000]⟩
abbrev S1x256 : Shape := ⟨2, ![1, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S16 : Shape := ⟨1, ![16]⟩
abbrev S16x256 : Shape := ⟨2, ![16, 256]⟩
abbrev S16x1 : Shape := ⟨2, ![16, 1]⟩
abbrev S16x10 : Shape := ⟨2, ![16, 10]⟩
abbrev S1x10 : Shape := ⟨2, ![1, 10]⟩

abbrev nBuf : Space → Nat
  | .hbm => 100
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000, .i32⟩
  | .hbm, ⟨3, _⟩ => ⟨S1x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x1, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x1, .f32⟩
  | .hbm, ⟨44, _⟩ => ⟨S_, .f32⟩
  | .hbm, ⟨45, _⟩ => ⟨S50000x1, .f32⟩
  | .hbm, ⟨46, _⟩ => ⟨S800000x1, .i32⟩
  | .hbm, ⟨47, _⟩ => ⟨S50000x1, .f32⟩
  | .hbm, ⟨48, _⟩ => ⟨S50000x1, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S16, .f32⟩
  | .hbm, ⟨84, _⟩ => ⟨S50000x1, .i32⟩
  | .hbm, ⟨85, _⟩ => ⟨S16, .f32⟩
  | .hbm, ⟨86, _⟩ => ⟨S_, .f32⟩
  | .hbm, ⟨87, _⟩ => ⟨S16x256, .f32⟩
  | .hbm, ⟨88, _⟩ => ⟨S50000x1, .i32⟩
  | .hbm, ⟨89, _⟩ => ⟨S16x256, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S16x1, .f32⟩
  | .hbm, ⟨94, _⟩ => ⟨S16x256, .f32⟩
  | .hbm, ⟨95, _⟩ => ⟨S16x256, .f32⟩
  | .hbm, ⟨96, _⟩ => ⟨S16x10, .f32⟩
  | .hbm, ⟨97, _⟩ => ⟨S1x10, .f32⟩
  | .hbm, ⟨98, _⟩ => ⟨S16x10, .f32⟩
  | .hbm, ⟨99, _⟩ => ⟨S16x10, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_cst : Ref sig .tc := ⟨.hbm, 53, rfl⟩
abbrev main_call0_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S16 : S_.BroadcastsInDim S16 (![] : Fin 0 → Fin S16.rank)
  bcast_S_S16x256 : S_.BroadcastsInDim S16x256 (![] : Fin 0 → Fin S16x256.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  scatter_S50000_S800000x1_S800000_n_0_0_1_wf : ScatterDims.WF S50000 S800000x1 S800000 [] [0] [0] 1
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S50000x1_S1x256_S50000x256_1_0_0_1_n_n_wf : DotDims.WF S50000x1 S1x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S16_S50000x1_S50000_n_0_0_1_wf : ScatterDims.WF S16 S50000x1 S50000 [] [0] [0] 1
  scatter_S16x256_S50000x1_S50000x256_1_0_0_1_wf : ScatterDims.WF S16x256 S50000x1 S50000x256 [1] [0] [0] 1
  dot_S16x256_S256x10_S16x10_1_0_0_1_n_n_wf : DotDims.WF S16x256 S256x10 S16x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x1_S1x256_S50000x256_1_0_0_1_n_n : DotDims S50000x1 S1x256 S50000x256 where
  lhsContracting := [1]
  rhsContracting := [0]
  lhsNonContracting := [0]
  rhsNonContracting := [1]
  lhsBatch := []
  rhsBatch := []
  wf := dot_S50000x1_S1x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def scatter_S16x256_S50000x1_S50000x256_1_0_0_1 : ScatterDims S16x256 S50000x1 S50000x256 where
  updateWindowDims := [1]
  insertedWindowDims := [0]
  scatterDimsToOperandDims := [0]
  indexVectorDim := 1
  wf := scatter_S16x256_S50000x1_S50000x256_1_0_0_1_wf
def dot_S16x256_S256x10_S16x10_1_0_0_1_n_n : DotDims S16x256 S256x10 S16x10 where
  lhsContracting := [1]
  rhsContracting := [0]
  lhsNonContracting := [0]
  rhsNonContracting := [1]
  lhsBatch := []
  rhsBatch := []
  wf := dot_S16x256_S256x10_S16x10_1_0_0_1_n_n_wf

class Facts : Prop extends Facts₀ where

variable [Facts]
-- ==== Proof.KernelRun.lean ====
/-
  The idealized kernel's run with its result named. Its @main is three dense layers, each a grid of row blocks, among
  three stretches of host operations (degrees and normalisers, the edge gather and scatter, the per-graph mean). Every
  weakly fair execution ends with each buffer at the last boundary's contents: the fold of the host stretches and of the
  three layers' write-backs over the launch memory. Here that is stated for the result array and the nine arguments.
-/
import proofs.«154838_j55413668053119_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result array at the
    last boundary's contents (the third layer's write-backs over what the third host stretch left) and the
    arguments as launched. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.DensePayload.lean ====
/-
  The three dense layers' bodies at the ideal instance, read at an index. Each body loads a block of rows `x`, the whole
  weight matrix `w` and the bias as one row `b`, and stores `x · w + b` (the first two layers clamp it below at zero):
  at row `p` and column `q` that is the sum over the contracted coordinate `k` of `x (p, k) * w (k, q)`, plus `b (0, q)`.
  The narrowing of the operands to bf16 is the identity on extended reals, and the product starts from a zero accumulator.
-/
import proofs.«154838_j55413668053119_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Idealize.ShloMosaic Idealize.ShloMosaic.ValueIdx

/-! ## Layer 0: a [5000, 1] block of rows against the [1, 256] weights -/

/-- The left operand's row coordinate is the output's row. -/
theorem lhs0_row (i : S5000x256.Idx) (c : dot_S5000x1_S1x256_S5000x256_1_0_0_1_n_n.contr.Idx) : (dot_S5000x1_S1x256_S5000x256_1_0_0_1_n_n.lhsIdx i c 0).val = (i 0).val := by
  unfold DotDims.lhsIdx
  rw [dif_neg (show ¬(0 : Fin S5000x1.rank) ∈ dot_S5000x1_S1x256_S5000x256_1_0_0_1_n_n.lhsBatch by decide),
    dif_pos (show (0 : Fin S5000x1.rank) ∈ dot_S5000x1_S1x256_S5000x256_1_0_0_1_n_n.lhsNonContracting by decide)]
  rfl
/-- The left operand's column coordinate is the contracted one. -/
theorem lhs0_col (i : S5000x256.Idx) (c : dot_S5000x1_S1x256_S5000x256_1_0_0_1_n_n.contr.Idx) : (dot_S5000x1_S1x256_S5000x256_1_0_0_1_n_n.lhsIdx i c 1).val = (c ⟨0, by decide⟩).val :=
  dot_S5000x1_S1x256_S5000x256_1_0_0_1_n_n.lhsIdx_val_of_single rfl i c
/-- The right operand's row coordinate is the contracted one. -/
theorem rhs0_row (i : S5000x256.Idx) (c : dot_S5000x1_S1x256_S5000x256_1_0_0_1_n_n.contr.Idx) : (dot_S5000x1_S1x256_S5000x256_1_0_0_1_n_n.rhsIdx i c 0).val = (c ⟨0, by decide⟩).val :=
  dot_S5000x1_S1x256_S5000x256_1_0_0_1_n_n.rhsIdx_val_of_single rfl i c
/-- The right operand's column coordinate is the output's column. -/
theorem rhs0_col (i : S5000x256.Idx) (c : dot_S5000x1_S1x256_S5000x256_1_0_0_1_n_n.contr.Idx) : (dot_S5000x1_S1x256_S5000x256_1_0_0_1_n_n.rhsIdx i c 1).val = (i 1).val := by
  unfold DotDims.rhsIdx
  rw [dif_neg (show ¬(1 : Fin S1x256.rank) ∈ dot_S5000x1_S1x256_S5000x256_1_0_0_1_n_n.rhsBatch by decide),
    dif_pos (show (1 : Fin S1x256.rank) ∈ dot_S5000x1_S1x256_S5000x256_1_0_0_1_n_n.rhsNonContracting by decide)]
  rfl

/-- The block's matrix product into a zero accumulator, read at row `p` and column `q`: the sum over the 1 contracted
    coordinate of the row's entry times the weight's. -/
theorem product0_apply (x : FVec Ideal S5000x1 .bf16) (w : FVec Ideal S1x256 .bf16) (p : Fin 5000) (q : Fin 256) :
    matmul dot_S5000x1_S1x256_S5000x256_1_0_0_1_n_n none x w (constant (F := Ideal) S5000x256 .f32 0x00000000#32) (ix2 p q)
      = ∑ k : Fin 1, x (ix2 p k) * w (ix2 k q) := by
  refine (Ideal.matmul_constant_zero_apply dot_S5000x1_S1x256_S5000x256_1_0_0_1_n_n none x w (ix2 p q)).trans ?_
  rw [← Equiv.sum_comp (contrEquiv1 dot_S5000x1_S1x256_S5000x256_1_0_0_1_n_n 1 rfl rfl).symm]
  refine Finset.sum_congr rfl fun k _ => ?_
  have hk := contrEquiv1_symm_val dot_S5000x1_S1x256_S5000x256_1_0_0_1_n_n 1 rfl rfl k
  have el : dot_S5000x1_S1x256_S5000x256_1_0_0_1_n_n.lhsIdx (ix2 p q) ((contrEquiv1 dot_S5000x1_S1x256_S5000x256_1_0_0_1_n_n 1 rfl rfl).symm k) = ix2 p k :=
    funext fun ax => Fin.ext (by
      match ax with
      | ⟨0, _⟩ => exact lhs0_row _ _
      | ⟨1, _⟩ => exact (lhs0_col _ _).trans hk)
  have er : dot_S5000x1_S1x256_S5000x256_1_0_0_1_n_n.rhsIdx (ix2 p q) ((contrEquiv1 dot_S5000x1_S1x256_S5000x256_1_0_0_1_n_n 1 rfl rfl).symm k) = ix2 k q :=
    funext fun ax => Fin.ext (by
      match ax with
      | ⟨0, _⟩ => exact (rhs0_row _ _).trans hk
      | ⟨1, _⟩ => exact rhs0_col _ _)
  rw [el, er]

/-- What layer 0's body stores, read at row `p` and column `q` of the block: the row's product with the weights plus the
    bias row's entry, clamped below at zero. The changes of float format are the identity on extended reals. -/
theorem stored0_apply (x : Vec Ideal S5000x1 .f32) (w : Vec Ideal S1x256 .f32) (b : Vec Ideal S1x256 .f32) (p : Fin 5000) (q : Fin 256) :
    k0_pay1 (F := Ideal) x w b (ix2 p q)
      = max ((∑ k : Fin 1, x (ix2 p k) * w (ix2 k q)) + b (ix2 (0 : Fin 1) q)) (Ideal.ofBits .f32 0x00000000#32) := by
  unfold k0_pay1
  show max (matmul dot_S5000x1_S1x256_S5000x256_1_0_0_1_n_n none (truncf .bf16 (shapeCast S5000x1 x shapeCasts_S5000x1_S5000x1) bitsLt_bf16_f32) (truncf .bf16 w bitsLt_bf16_f32)
        (constant (F := Ideal) S5000x256 .f32 0x00000000#32) (ix2 p q)
      + broadcastTo S5000x256 (shapeCast S1x256 b shapeCasts_S1x256_S1x256) broadcasts_S1x256_S5000x256 (ix2 p q)) (Ideal.ofBits .f32 0x00000000#32) = _
  rw [product0_apply, broadcastTo_1b_ab_apply, shapeCast_self, shapeCast_self]
  rfl

/-! ## Layer 1: a [5000, 256] block of rows against the [256, 256] weights -/

/-- The left operand's row coordinate is the output's row. -/
theorem lhs1_row (i : S5000x256.Idx) (c : dot_S5000x256_S256x256_S5000x256_1_0_0_1_n_n.contr.Idx) : (dot_S5000x256_S256x256_S5000x256_1_0_0_1_n_n.lhsIdx i c 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
/-- The left operand's column coordinate is the contracted one. -/
theorem lhs1_col (i : S5000x256.Idx) (c : dot_S5000x256_S256x256_S5000x256_1_0_0_1_n_n.contr.Idx) : (dot_S5000x256_S256x256_S5000x256_1_0_0_1_n_n.lhsIdx i c 1).val = (c ⟨0, by decide⟩).val :=
  dot_S5000x256_S256x256_S5000x256_1_0_0_1_n_n.lhsIdx_val_of_single rfl i c
/-- The right operand's row coordinate is the contracted one. -/
theorem rhs1_row (i : S5000x256.Idx) (c : dot_S5000x256_S256x256_S5000x256_1_0_0_1_n_n.contr.Idx) : (dot_S5000x256_S256x256_S5000x256_1_0_0_1_n_n.rhsIdx i c 0).val = (c ⟨0, by decide⟩).val :=
  dot_S5000x256_S256x256_S5000x256_1_0_0_1_n_n.rhsIdx_val_of_single rfl i c
/-- The right operand's column coordinate is the output's column. -/
theorem rhs1_col (i : S5000x256.Idx) (c : dot_S5000x256_S256x256_S5000x256_1_0_0_1_n_n.contr.Idx) : (dot_S5000x256_S256x256_S5000x256_1_0_0_1_n_n.rhsIdx i c 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The block's matrix product into a zero accumulator, read at row `p` and column `q`: the sum over the 256 contracted
    coordinates of the row's entry times the weight's. -/
theorem product1_apply (x : FVec Ideal S5000x256 .bf16) (w : FVec Ideal S256x256 .bf16) (p : Fin 5000) (q : Fin 256) :
    matmul dot_S5000x256_S256x256_S5000x256_1_0_0_1_n_n none x w (constant (F := Ideal) S5000x256 .f32 0x00000000#32) (ix2 p q)
      = ∑ k : Fin 256, x (ix2 p k) * w (ix2 k q) := by
  refine (Ideal.matmul_constant_zero_apply dot_S5000x256_S256x256_S5000x256_1_0_0_1_n_n none x w (ix2 p q)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k :=
    funext fun ax => Fin.ext (by
      match ax with
      | ⟨0, _⟩ => exact lhs1_row _ _
      | ⟨1, _⟩ => exact (lhs1_col _ _).trans hk)
  have er : dot_S5000x256_S256x256_S5000x256_1_0_0_1_n_n.rhsIdx (ix2 p q) ((contrEquiv1 dot_S5000x256_S256x256_S5000x256_1_0_0_1_n_n 256 rfl rfl).symm k) = ix2 k q :=
    funext fun ax => Fin.ext (by
      match ax with
      | ⟨0, _⟩ => exact (rhs1_row _ _).trans hk
      | ⟨1, _⟩ => exact rhs1_col _ _)
  rw [el, er]

/-- What layer 1's body stores, read at row `p` and column `q` of the block: the row's product with the weights plus the
    bias row's entry, clamped below at zero. The changes of float format are the identity on extended reals. -/
theorem stored1_apply (x : Vec Ideal S5000x256 .f32) (w : Vec Ideal S256x256 .f32) (b : Vec Ideal S1x256 .f32) (p : Fin 5000) (q : Fin 256) :
    k1_pay1 (F := Ideal) x w b (ix2 p q)
      = max ((∑ k : Fin 256, x (ix2 p k) * w (ix2 k q)) + b (ix2 (0 : Fin 1) q)) (Ideal.ofBits .f32 0x00000000#32) := by
  unfold k1_pay1
  show max (matmul dot_S5000x256_S256x256_S5000x256_1_0_0_1_n_n none (truncf .bf16 (shapeCast S5000x256 x shapeCasts_S5000x256_S5000x256) bitsLt_bf16_f32) (truncf .bf16 w bitsLt_bf16_f32)
        (constant (F := Ideal) S5000x256 .f32 0x00000000#32) (ix2 p q)
      + broadcastTo S5000x256 (shapeCast S1x256 b shapeCasts_S1x256_S1x256) broadcasts_S1x256_S5000x256 (ix2 p q)) (Ideal.ofBits .f32 0x00000000#32) = _
  rw [product1_apply, broadcastTo_1b_ab_apply, shapeCast_self, shapeCast_self]
  rfl

/-! ## Layer 2: a [16, 256] block of rows against the [256, 10] weights -/

/-- The left operand's row coordinate is the output's row. -/
theorem lhs2_row (i : S16x10.Idx) (c : dot_S16x256_S256x10_S16x10_1_0_0_1_n_n.contr.Idx) : (dot_S16x256_S256x10_S16x10_1_0_0_1_n_n.lhsIdx i c 0).val = (i 0).val := by
  unfold DotDims.lhsIdx
  rw [dif_neg (show ¬(0 : Fin S16x256.rank) ∈ dot_S16x256_S256x10_S16x10_1_0_0_1_n_n.lhsBatch by decide),
    dif_pos (show (0 : Fin S16x256.rank) ∈ dot_S16x256_S256x10_S16x10_1_0_0_1_n_n.lhsNonContracting by decide)]
  rfl
/-- The left operand's column coordinate is the contracted one. -/
theorem lhs2_col (i : S16x10.Idx) (c : dot_S16x256_S256x10_S16x10_1_0_0_1_n_n.contr.Idx) : (dot_S16x256_S256x10_S16x10_1_0_0_1_n_n.lhsIdx i c 1).val = (c ⟨0, by decide⟩).val :=
  dot_S16x256_S256x10_S16x10_1_0_0_1_n_n.lhsIdx_val_of_single rfl i c
/-- The right operand's row coordinate is the contracted one. -/
theorem rhs2_row (i : S16x10.Idx) (c : dot_S16x256_S256x10_S16x10_1_0_0_1_n_n.contr.Idx) : (dot_S16x256_S256x10_S16x10_1_0_0_1_n_n.rhsIdx i c 0).val = (c ⟨0, by decide⟩).val :=
  dot_S16x256_S256x10_S16x10_1_0_0_1_n_n.rhsIdx_val_of_single rfl i c
/-- The right operand's column coordinate is the output's column. -/
theorem rhs2_col (i : S16x10.Idx) (c : dot_S16x256_S256x10_S16x10_1_0_0_1_n_n.contr.Idx) : (dot_S16x256_S256x10_S16x10_1_0_0_1_n_n.rhsIdx i c 1).val = (i 1).val := by
  unfold DotDims.rhsIdx
  rw [dif_neg (show ¬(1 : Fin S256x10.rank) ∈ dot_S16x256_S256x10_S16x10_1_0_0_1_n_n.rhsBatch by decide),
    dif_pos (show (1 : Fin S256x10.rank) ∈ dot_S16x256_S256x10_S16x10_1_0_0_1_n_n.rhsNonContracting by decide)]
  rfl

/-- The block's matrix product into a zero accumulator, read at row `p` and column `q`: the sum over the 256 contracted
    coordinates of the row's entry times the weight's. -/
theorem product2_apply (x : FVec Ideal S16x256 .bf16) (w : FVec Ideal S256x10 .bf16) (p : Fin 16) (q : Fin 10) :
    matmul dot_S16x256_S256x10_S16x10_1_0_0_1_n_n none x w (constant (F := Ideal) S16x10 .f32 0x00000000#32) (ix2 p q)
      = ∑ k : Fin 256, x (ix2 p k) * w (ix2 k q) := by
  refine (Ideal.matmul_constant_zero_apply dot_S16x256_S256x10_S16x10_1_0_0_1_n_n none x w (ix2 p q)).trans ?_
  rw [← Equiv.sum_comp (contrEquiv1 dot_S16x256_S256x10_S16x10_1_0_0_1_n_n 256 rfl rfl).symm]
  refine Finset.sum_congr rfl fun k _ => ?_
  have hk := contrEquiv1_symm_val dot_S16x256_S256x10_S16x10_1_0_0_1_n_n 256 rfl rfl k
  have el : dot_S16x256_S256x10_S16x10_1_0_0_1_n_n.lhsIdx (ix2 p q) ((contrEquiv1 dot_S16x256_S256x10_S16x10_1_0_0_1_n_n 256 rfl rfl).symm k) = ix2 p k :=
    funext fun ax => Fin.ext (by
      match ax with
      | ⟨0, _⟩ => exact lhs2_row _ _
      | ⟨1, _⟩ => exact (lhs2_col _ _).trans hk)
  have er : dot_S16x256_S256x10_S16x10_1_0_0_1_n_n.rhsIdx (ix2 p q) ((contrEquiv1 dot_S16x256_S256x10_S16x10_1_0_0_1_n_n 256 rfl rfl).symm k) = ix2 k q :=
    funext fun ax => Fin.ext (by
      match ax with
      | ⟨0, _⟩ => exact (rhs2_row _ _).trans hk
      | ⟨1, _⟩ => exact rhs2_col _ _)
  rw [el, er]

/-- What layer 2's body stores, read at row `p` and column `q` of the block: the row's product with the weights plus the
    bias row's entry. The changes of float format are the identity on extended reals. -/
theorem stored2_apply (x : Vec Ideal S16x256 .f32) (w : Vec Ideal S256x10 .f32) (b : Vec Ideal S1x10 .f32) (p : Fin 16) (q : Fin 10) :
    k2_pay1 (F := Ideal) x w b (ix2 p q)
      = (∑ k : Fin 256, x (ix2 p k) * w (ix2 k q)) + b (ix2 (0 : Fin 1) q) := by
  unfold k2_pay1
  show matmul dot_S16x256_S256x10_S16x10_1_0_0_1_n_n none (truncf .bf16 (shapeCast S16x256 x shapeCasts_S16x256_S16x256) bitsLt_bf16_f32) (truncf .bf16 w bitsLt_bf16_f32)
        (constant (F := Ideal) S16x10 .f32 0x00000000#32) (ix2 p q)
      + broadcastTo S16x10 (shapeCast S1x10 b shapeCasts_S1x10_S1x10) broadcasts_S1x10_S16x10 (ix2 p q) = _
  rw [product2_apply, broadcastTo_1b_ab_apply, shapeCast_self, shapeCast_self]
  rfl

end Cert.KernelIdeal.Dense

end
-- ==== Proof.DenseSpec.lean ====
/-
  The specification both programs are compared with: a dense layer as ONE function of its input arrays, index by index.
  A layer multiplies a matrix of node (or graph) features by a weight matrix, adds the bias to every row and, in the two
  hidden layers, clamps the result below at zero. The sums are finite sums of extended reals; the zero the clamp compares
  with is kept as the float word both programs print.
-/
import Idealize.ShloMosaic.PureOps.Ideal
import Idealize.ShloMosaic.Lib.ValueIdx

noncomputable section

namespace Cert.DenseSpec

open Idealize.ShloMosaic Idealize.ShloMosaic.ValueIdx

/-- Dense layer 0: `X · W + B` clamped below at zero, for `X` of 50000 rows and 1 column, `W` of 1 row and 256 columns, and the bias as
    one row `B`. At row `r` and column `q`: the sum over `k` of `X (r, k) * W (k, q)`, plus `B (0, q)`. -/
def dense0 (X : (⟨2, ![50000, 1]⟩ : Shape).Idx → EReal) (W : (⟨2, ![1, 256]⟩ : Shape).Idx → EReal)
    (B : (⟨2, ![1, 256]⟩ : Shape).Idx → EReal) : (⟨2, ![50000, 256]⟩ : Shape).Idx → EReal := fun i =>
  max ((∑ k : Fin 1, X (ix2 (⟨(i 0).val, (i 0).isLt⟩ : Fin 50000) k) * W (ix2 k (⟨(i 1).val, (i 1).isLt⟩ : Fin 256)))
      + B (ix2 (0 : Fin 1) (⟨(i 1).val, (i 1).isLt⟩ : Fin 256))) (Ideal.ofBits .f32 0x00000000#32)

/-- Dense layer 1: `X · W + B` clamped below at zero, for `X` of 50000 rows and 256 columns, `W` of 256 rows and 256 columns, and the bias as
    one row `B`. At row `r` and column `q`: the sum over `k` of `X (r, k) * W (k, q)`, plus `B (0, q)`. -/
def dense1 (X : (⟨2, ![50000, 256]⟩ : Shape).Idx → EReal) (W : (⟨2, ![256, 256]⟩ : Shape).Idx → EReal)
    (B : (⟨2, ![1, 256]⟩ : Shape).Idx → EReal) : (⟨2, ![50000, 256]⟩ : Shape).Idx → EReal := fun i =>
  max ((∑ k : Fin 256, X (ix2 (⟨(i 0).val, (i 0).isLt⟩ : Fin 50000) k) * W (ix2 k (⟨(i 1).val, (i 1).isLt⟩ : Fin 256)))
      + B (ix2 (0 : Fin 1) (⟨(i 1).val, (i 1).isLt⟩ : Fin 256))) (Ideal.ofBits .f32 0x00000000#32)

/-- Dense layer 2: `X · W + B`, for `X` of 16 rows and 256 columns, `W` of 256 rows and 10 columns, and the bias as
    one row `B`. At row `r` and column `q`: the sum over `k` of `X (r, k) * W (k, q)`, plus `B (0, q)`. -/
def dense2 (X : (⟨2, ![16, 256]⟩ : Shape).Idx → EReal) (W : (⟨2, ![256, 10]⟩ : Shape).Idx → EReal)
    (B : (⟨2, ![1, 10]⟩ : Shape).Idx → EReal) : (⟨2, ![16, 10]⟩ : Shape).Idx → EReal := fun i =>
  (∑ k : Fin 256, X (ix2 (⟨(i 0).val, (i 0).isLt⟩ : Fin 16) k) * W (ix2 k (⟨(i 1).val, (i 1).isLt⟩ : Fin 10)))
      + B (ix2 (0 : Fin 1) (⟨(i 1).val, (i 1).isLt⟩ : Fin 10))

end Cert.DenseSpec

end
-- ==== Proof.Layers.lean ====
/-
  From blocks to arrays, for each of the kernel's three dense layers. A layer's grid walks the feature array in blocks of
  rows; at every point the body reads its block of rows, the whole weight matrix and the bias row, and the block it writes
  back is the same block of ONE whole-array function of the arrays the region was entered with: the dense-layer
  specification. The row blocks tile the result array, so after the region the array is that function.
-/
import proofs.«154838_j55413668053119_1_alg».proof.Proof.Gen.KernelIdeal.Frame
import proofs.«154838_j55413668053119_1_alg».proof.Proof.DensePayload
import proofs.«154838_j55413668053119_1_alg».proof.Proof.DenseSpec
import Idealize.ShloMosaic.Lib.Pipeline.Value

set_option maxRecDepth 16384

noncomputable section

namespace Cert.KernelIdeal.Layers

open Cert.KernelIdeal Cert.KernelIdeal.Gen Cert.KernelIdeal.Dense Cert.DenseSpec
open Idealize.ShloMosaic Idealize.ShloMosaic.TcCoe Idealize.SL.Sem Idealize.ShloMosaic.ValueIdx
open Idealize.ShloMosaic.Pipeline (Dat)

-- The buffer contents a region is entered with: each layer's statements are about any such contents.
variable (V : (c : Dev nD) → (b : Ref sig .tc) → Buf (Elt Ideal) ((c : Thread nD τ).loc b))

/-- Every access of the three bodies starts at the origin of its staging buffer. -/
theorem zero_offsets : (![0, 0] : Fin 2 → Nat) = fun _ => 0 := funext fun a => by fin_cases a <;> rfl

/-! ## Layer 0: 10 points, each a block of 5000 rows -/

/-- The printed index maps over layer 0's grid, decided point by point: the features' and the result's block is the
    point's row block, the weights' and the bias row's is their whole array. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- One point of layer 0. If the loaded block `x` is rows `n * 5000 …` of the feature array `X`, and `w`, `b` are the weights
    and the bias row, then what the body stores at row `p`, column `q` of the block is the specification at row
    `n * 5000 + p`, column `q` of the array. -/
theorem point0 (X : S50000x1.Idx → EReal) (W : S1x256.Idx → EReal) (B : S1x256.Idx → EReal)
    (x : Vec Ideal S5000x1 .f32) (w : Vec Ideal S1x256 .f32) (b : Vec Ideal S1x256 .f32) (n : Nat) (hn : n < 10)
    (hx : ∀ (p : Fin 5000) (k : Fin 1), x (ix2 p k) = X (ix2 (⟨n * 5000 + p.val, by have := p.isLt; omega⟩ : Fin 50000) k))
    (hw : ∀ (k : Fin 1) (q : Fin 256), w (ix2 k q) = W (ix2 k q))
    (hb : ∀ q : Fin 256, b (ix2 (0 : Fin 1) q) = B (ix2 (0 : Fin 1) q))
    (p : Fin 5000) (q : Fin 256) (i : S50000x256.Idx) (hi0 : (i 0).val = n * 5000 + p.val) (hi1 : (i 1).val = q.val) :
    k0_pay1 (F := Ideal) x w b (ix2 p q) = dense0 X W B i := by
  rw [stored0_apply]
  unfold dense0
  have e0 : (⟨(i 0).val, (i 0).isLt⟩ : Fin 50000) = ⟨n * 5000 + p.val, by have := p.isLt; omega⟩ := Fin.ext hi0
  have e1 : (⟨(i 1).val, (i 1).isLt⟩ : Fin 256) = q := Fin.ext hi1
  rw [e0, e1, hb]
  simp only [hx, hw]

/-- What point `t` of layer 0 writes back is block `t` of the specification applied to the arrays the region finds. -/
theorem block0 (c : Dev nD) (t : Fin cfg0.N) :
    (dat0 V c).flushed 3 t
      = ((cfg0.win 3).blk t).view.read (Elt Ideal) (dense0 (V c main_v29) (V c main_arg3) (V c main_v30)) := by
  show (cfg0.win 3).cut (grid0.coords t) ((dat0 V c).after 3 t) = _
  rw [after0_3]
  unfold out0_3
  rw [View.canon_unit_zero zero_offsets]
  simp only [View.ld_unit_zero (S := S5000x1) zero_offsets, View.ld_unit_zero (S := S1x256) zero_offsets]
  obtain ⟨a0, a1, b0, b1, c0, c1, d0, d1, ht⟩ := index_maps0 t
  funext y
  obtain ⟨p, q, rfl⟩ : ∃ (p : Fin 5000) (q : Fin 256), y = ix2 p q := ⟨y 0, y 1, eq_ix2 y⟩
  show k0_pay1 (iblk0 V c 0 t) (iblk0 V c 1 t) (iblk0 V c 2 t) (ix2 p q)
    = dense0 (V c main_v29) (V c main_arg3) (V c main_v30) (((cfg0.win 3).blk t).view.emb (ix2 p q))
  refine point0 (V c main_v29) (V c main_arg3) (V c main_v30) _ _ _ t.val ht ?_ ?_ ?_ p q _ ?_ ?_
  · intro p' k
    show V c main_v29 (((cfg0.win 0).blk t).view.emb (ix2 p' k)) = _
    refine congrArg (V c main_v29) (funext fun a => Fin.ext ?_)
    match a with
    | ⟨0, _⟩ => show win0_0.index t (0 : Fin 2) * 5000 + 1 * p'.val = t.val * 5000 + p'.val; rw [a0]; omega
    | ⟨1, _⟩ => show win0_0.index t (1 : Fin 2) * 1 + 1 * k.val = k.val; rw [a1]; omega
  · intro k q'
    show V c main_arg3 (((cfg0.win 1).blk t).view.emb (ix2 k q')) = _
    refine congrArg (V c main_arg3) (funext fun a => Fin.ext ?_)
    match a with
    | ⟨0, _⟩ => show win0_1.index t (0 : Fin 2) * 1 + 1 * k.val = k.val; rw [b0]; omega
    | ⟨1, _⟩ => show win0_1.index t (1 : Fin 2) * 256 + 1 * q'.val = q'.val; rw [b1]; omega
  · intro q'
    show V c main_v30 (((cfg0.win 2).blk t).view.emb (ix2 (0 : Fin 1) q')) = _
    refine congrArg (V c main_v30) (funext fun a => Fin.ext ?_)
    match a with
    | ⟨0, _⟩ => show win0_2.index t (0 : Fin 2) * 1 + 1 * 0 = 0; rw [c0]
    | ⟨1, _⟩ => show win0_2.index t (1 : Fin 2) * 256 + 1 * q'.val = q'.val; rw [c1]; omega
  · show win0_3.index t (0 : Fin 2) * 5000 + 1 * p.val = t.val * 5000 + p.val; rw [d0]; omega
  · show win0_3.index t (1 : Fin 2) * 256 + 1 * q.val = q.val; rw [d1]; omega

/-- Every index of layer 0's result array is in the block of the point its row falls in. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 10 := N_0
  have ht : (i 0).val / 5000 < cfg0.N := by show (i 0).val / 5000 < grid0.N; rw [hN]; omega
  obtain ⟨_, _, _, _, _, _, d0, d1, _⟩ := index_maps0 ⟨(i 0).val / 5000, ht⟩
  refine ⟨⟨(i 0).val / 5000, ht⟩, flush0_3 _, ?_⟩
  show i ∈ ((View.whole main_v31).slice (win0_3.rect ⟨(i 0).val / 5000, ht⟩)).set
  rw [View.set_slice_whole, Rect.mem_set_unit]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [d0]; show (i 0).val / 5000 * 5000 ≤ (i 0).val ∧ (i 0).val < (i 0).val / 5000 * 5000 + 5000; omega
  | ⟨1, _⟩ =>
    show win0_3.index ⟨(i 0).val / 5000, ht⟩ (1 : Fin 2) * 256 ≤ (i 1).val
      ∧ (i 1).val < win0_3.index ⟨(i 0).val / 5000, ht⟩ (1 : Fin 2) * 256 + 256
    rw [d1]; omega

/-- Layer 0's result array after its region is the specification applied to the arrays the region was entered with. -/
theorem array0 (c : Dev nD) :
    (dat0 V c).arrAt 3 cfg0.N = dense0 (V c main_v29) (V c main_arg3) (V c main_v30) :=
  (dat0 V c).arrAt_eq_of_cover 3 (dense0 (V c main_v29) (V c main_arg3) (V c main_v30)) (fun t _ => block0 V c t)
    (cover0)

/-! ## Layer 1: 10 points, each a block of 5000 rows -/

/-- The printed index maps over layer 1's grid, decided point by point: the features' and the result's block is the
    point's row block, the weights' and the bias row's is their whole array. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- One point of layer 1. If the loaded block `x` is rows `n * 5000 …` of the feature array `X`, and `w`, `b` are the weights
    and the bias row, then what the body stores at row `p`, column `q` of the block is the specification at row
    `n * 5000 + p`, column `q` of the array. -/
theorem point1 (X : S50000x256.Idx → EReal) (W : S256x256.Idx → EReal) (B : S1x256.Idx → EReal)
    (x : Vec Ideal S5000x256 .f32) (w : Vec Ideal S256x256 .f32) (b : Vec Ideal S1x256 .f32) (n : Nat) (hn : n < 10)
    (hx : ∀ (p : Fin 5000) (k : Fin 256), x (ix2 p k) = X (ix2 (⟨n * 5000 + p.val, by have := p.isLt; omega⟩ : Fin 50000) k))
    (hw : ∀ (k : Fin 256) (q : Fin 256), w (ix2 k q) = W (ix2 k q))
    (hb : ∀ q : Fin 256, b (ix2 (0 : Fin 1) q) = B (ix2 (0 : Fin 1) q))
    (p : Fin 5000) (q : Fin 256) (i : S50000x256.Idx) (hi0 : (i 0).val = n * 5000 + p.val) (hi1 : (i 1).val = q.val) :
    k1_pay1 (F := Ideal) x w b (ix2 p q) = dense1 X W B i := by
  rw [stored1_apply]
  unfold dense1
  have e0 : (⟨(i 0).val, (i 0).isLt⟩ : Fin 50000) = ⟨n * 5000 + p.val, by have := p.isLt; omega⟩ := Fin.ext hi0
  have e1 : (⟨(i 1).val, (i 1).isLt⟩ : Fin 256) = q := Fin.ext hi1
  rw [e0, e1, hb]
  simp only [hx, hw]

/-- What point `t` of layer 1 writes back is block `t` of the specification applied to the arrays the region finds. -/
theorem block1 (c : Dev nD) (t : Fin cfg1.N) :
    (dat1 V c).flushed 3 t
      = ((cfg1.win 3).blk t).view.read (Elt Ideal) (dense1 (V c main_v45) (V c main_arg5) (V c main_v46)) := by
  show (cfg1.win 3).cut (grid1.coords t) ((dat1 V c).after 3 t) = _
  rw [after1_3]
  unfold out1_3
  rw [View.canon_unit_zero zero_offsets]
  simp only [View.ld_unit_zero (S := S5000x256) zero_offsets, View.ld_unit_zero (S := S256x256) zero_offsets, View.ld_unit_zero (S := S1x256) zero_offsets]
  obtain ⟨a0, a1, b0, b1, c0, c1, d0, d1, ht⟩ := index_maps1 t
  funext y
  obtain ⟨p, q, rfl⟩ : ∃ (p : Fin 5000) (q : Fin 256), y = ix2 p q := ⟨y 0, y 1, eq_ix2 y⟩
  show k1_pay1 (iblk1 V c 0 t) (iblk1 V c 1 t) (iblk1 V c 2 t) (ix2 p q)
    = dense1 (V c main_v45) (V c main_arg5) (V c main_v46) (((cfg1.win 3).blk t).view.emb (ix2 p q))
  refine point1 (V c main_v45) (V c main_arg5) (V c main_v46) _ _ _ t.val ht ?_ ?_ ?_ p q _ ?_ ?_
  · intro p' k
    show V c main_v45 (((cfg1.win 0).blk t).view.emb (ix2 p' k)) = _
    refine congrArg (V c main_v45) (funext fun a => Fin.ext ?_)
    match a with
    | ⟨0, _⟩ => show win1_0.index t (0 : Fin 2) * 5000 + 1 * p'.val = t.val * 5000 + p'.val; rw [a0]; omega
    | ⟨1, _⟩ => show win1_0.index t (1 : Fin 2) * 256 + 1 * k.val = k.val; rw [a1]; omega
  · intro k q'
    show V c main_arg5 (((cfg1.win 1).blk t).view.emb (ix2 k q')) = _
    refine congrArg (V c main_arg5) (funext fun a => Fin.ext ?_)
    match a with
    | ⟨0, _⟩ => show win1_1.index t (0 : Fin 2) * 256 + 1 * k.val = k.val; rw [b0]; omega
    | ⟨1, _⟩ => show win1_1.index t (1 : Fin 2) * 256 + 1 * q'.val = q'.val; rw [b1]; omega
  · intro q'
    show V c main_v46 (((cfg1.win 2).blk t).view.emb (ix2 (0 : Fin 1) q')) = _
    refine congrArg (V c main_v46) (funext fun a => Fin.ext ?_)
    match a with
    | ⟨0, _⟩ => show win1_2.index t (0 : Fin 2) * 1 + 1 * 0 = 0; rw [c0]
    | ⟨1, _⟩ => show win1_2.index t (1 : Fin 2) * 256 + 1 * q'.val = q'.val; rw [c1]; omega
  · show win1_3.index t (0 : Fin 2) * 5000 + 1 * p.val = t.val * 5000 + p.val; rw [d0]; omega
  · show win1_3.index t (1 : Fin 2) * 256 + 1 * q.val = q.val; rw [d1]; omega

/-- Every index of layer 1's result array is in the block of the point its row falls in. -/
theorem cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 10 := N_1
  have ht : (i 0).val / 5000 < cfg1.N := by show (i 0).val / 5000 < grid1.N; rw [hN]; omega
  obtain ⟨_, _, _, _, _, _, d0, d1, _⟩ := index_maps1 ⟨(i 0).val / 5000, ht⟩
  refine ⟨⟨(i 0).val / 5000, ht⟩, flush1_3 _, ?_⟩
  show i ∈ ((View.whole main_v47).slice (win1_3.rect ⟨(i 0).val / 5000, ht⟩)).set
  rw [View.set_slice_whole, Rect.mem_set_unit]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [d0]; show (i 0).val / 5000 * 5000 ≤ (i 0).val ∧ (i 0).val < (i 0).val / 5000 * 5000 + 5000; omega
  | ⟨1, _⟩ =>
    show win1_3.index ⟨(i 0).val / 5000, ht⟩ (1 : Fin 2) * 256 ≤ (i 1).val
      ∧ (i 1).val < win1_3.index ⟨(i 0).val / 5000, ht⟩ (1 : Fin 2) * 256 + 256
    rw [d1]; omega

/-- Layer 1's result array after its region is the specification applied to the arrays the region was entered with. -/
theorem array1 (c : Dev nD) :
    (dat1 V c).arrAt 3 cfg1.N = dense1 (V c main_v45) (V c main_arg5) (V c main_v46) :=
  (dat1 V c).arrAt_eq_of_cover 3 (dense1 (V c main_v45) (V c main_arg5) (V c main_v46)) (fun t _ => block1 V c t)
    (cover1)

/-! ## Layer 2: 1 point, each a block of 16 rows -/

/-- The printed index maps over layer 2's grid, decided point by point: the features' and the result's block is the
    point's row block, the weights' and the bias row's is their whole array. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 1 :=
  (by decide +kernel : ∀ t : Fin grid2.N, _)

/-- One point of layer 2. If the loaded block `x` is rows `n * 16 …` of the feature array `X`, and `w`, `b` are the weights
    and the bias row, then what the body stores at row `p`, column `q` of the block is the specification at row
    `n * 16 + p`, column `q` of the array. -/
theorem point2 (X : S16x256.Idx → EReal) (W : S256x10.Idx → EReal) (B : S1x10.Idx → EReal)
    (x : Vec Ideal S16x256 .f32) (w : Vec Ideal S256x10 .f32) (b : Vec Ideal S1x10 .f32) (n : Nat) (hn : n < 1)
    (hx : ∀ (p : Fin 16) (k : Fin 256), x (ix2 p k) = X (ix2 (⟨n * 16 + p.val, by have := p.isLt; omega⟩ : Fin 16) k))
    (hw : ∀ (k : Fin 256) (q : Fin 10), w (ix2 k q) = W (ix2 k q))
    (hb : ∀ q : Fin 10, b (ix2 (0 : Fin 1) q) = B (ix2 (0 : Fin 1) q))
    (p : Fin 16) (q : Fin 10) (i : S16x10.Idx) (hi0 : (i 0).val = n * 16 + p.val) (hi1 : (i 1).val = q.val) :
    k2_pay1 (F := Ideal) x w b (ix2 p q) = dense2 X W B i := by
  rw [stored2_apply]
  unfold dense2
  have e0 : (⟨(i 0).val, (i 0).isLt⟩ : Fin 16) = ⟨n * 16 + p.val, by have := p.isLt; omega⟩ := Fin.ext hi0
  have e1 : (⟨(i 1).val, (i 1).isLt⟩ : Fin 10) = q := Fin.ext hi1
  rw [e0, e1, hb]
  simp only [hx, hw]

/-- What point `t` of layer 2 writes back is block `t` of the specification applied to the arrays the region finds. -/
theorem block2 (c : Dev nD) (t : Fin cfg2.N) :
    (dat2 V c).flushed 3 t
      = ((cfg2.win 3).blk t).view.read (Elt Ideal) (dense2 (V c main_v59) (V c main_arg7) (V c main_v60)) := by
  show (cfg2.win 3).cut (grid2.coords t) ((dat2 V c).after 3 t) = _
  rw [after2_3]
  unfold out2_3
  rw [View.canon_unit_zero zero_offsets]
  simp only [View.ld_unit_zero (S := S16x256) zero_offsets, View.ld_unit_zero (S := S256x10) zero_offsets, View.ld_unit_zero (S := S1x10) zero_offsets]
  obtain ⟨a0, a1, b0, b1, c0, c1, d0, d1, ht⟩ := index_maps2 t
  funext y
  obtain ⟨p, q, rfl⟩ : ∃ (p : Fin 16) (q : Fin 10), y = ix2 p q := ⟨y 0, y 1, eq_ix2 y⟩
  show k2_pay1 (iblk2 V c 0 t) (iblk2 V c 1 t) (iblk2 V c 2 t) (ix2 p q)
    = dense2 (V c main_v59) (V c main_arg7) (V c main_v60) (((cfg2.win 3).blk t).view.emb (ix2 p q))
  refine point2 (V c main_v59) (V c main_arg7) (V c main_v60) _ _ _ t.val ht ?_ ?_ ?_ p q _ ?_ ?_
  · intro p' k
    show V c main_v59 (((cfg2.win 0).blk t).view.emb (ix2 p' k)) = _
    refine congrArg (V c main_v59) (funext fun a => Fin.ext ?_)
    match a with
    | ⟨0, _⟩ => show win2_0.index t (0 : Fin 2) * 16 + 1 * p'.val = t.val * 16 + p'.val; rw [a0]; omega
    | ⟨1, _⟩ => show win2_0.index t (1 : Fin 2) * 256 + 1 * k.val = k.val; rw [a1]; omega
  · intro k q'
    show V c main_arg7 (((cfg2.win 1).blk t).view.emb (ix2 k q')) = _
    refine congrArg (V c main_arg7) (funext fun a => Fin.ext ?_)
    match a with
    | ⟨0, _⟩ => show win2_1.index t (0 : Fin 2) * 256 + 1 * k.val = k.val; rw [b0]; omega
    | ⟨1, _⟩ => show win2_1.index t (1 : Fin 2) * 10 + 1 * q'.val = q'.val; rw [b1]; omega
  · intro q'
    show V c main_v60 (((cfg2.win 2).blk t).view.emb (ix2 (0 : Fin 1) q')) = _
    refine congrArg (V c main_v60) (funext fun a => Fin.ext ?_)
    match a with
    | ⟨0, _⟩ => show win2_2.index t (0 : Fin 2) * 1 + 1 * 0 = 0; rw [c0]
    | ⟨1, _⟩ => show win2_2.index t (1 : Fin 2) * 10 + 1 * q'.val = q'.val; rw [c1]; omega
  · show win2_3.index t (0 : Fin 2) * 16 + 1 * p.val = t.val * 16 + p.val; rw [d0]; omega
  · show win2_3.index t (1 : Fin 2) * 10 + 1 * q.val = q.val; rw [d1]; omega

/-- Every index of layer 2's result array is in the block of the point its row falls in. -/
theorem cover2 (i : S16x10.Idx) :
    ∃ t : Fin cfg2.N, (cfg2.win 3).flush t = true ∧ i ∈ ((cfg2.win 3).blk t).view.set := by
  have hi0 : (i 0).val < 16 := (i 0).isLt
  have hi1 : (i 1).val < 10 := (i 1).isLt
  have hN : grid2.N = 1 := N_2
  have ht : (i 0).val / 16 < cfg2.N := by show (i 0).val / 16 < grid2.N; rw [hN]; omega
  obtain ⟨_, _, _, _, _, _, d0, d1, _⟩ := index_maps2 ⟨(i 0).val / 16, ht⟩
  refine ⟨⟨(i 0).val / 16, ht⟩, flush2_3 _, ?_⟩
  show i ∈ ((View.whole main_v61).slice (win2_3.rect ⟨(i 0).val / 16, ht⟩)).set
  rw [View.set_slice_whole, Rect.mem_set_unit]
  intro a
  match a with
  | ⟨0, _⟩ =>
    show win2_3.index ⟨(i 0).val / 16, ht⟩ (0 : Fin 2) * 16 ≤ (i 0).val
      ∧ (i 0).val < win2_3.index ⟨(i 0).val / 16, ht⟩ (0 : Fin 2) * 16 + 16
    rw [d0]; show (i 0).val / 16 * 16 ≤ (i 0).val ∧ (i 0).val < (i 0).val / 16 * 16 + 16; omega
  | ⟨1, _⟩ =>
    show win2_3.index ⟨(i 0).val / 16, ht⟩ (1 : Fin 2) * 10 ≤ (i 1).val
      ∧ (i 1).val < win2_3.index ⟨(i 0).val / 16, ht⟩ (1 : Fin 2) * 10 + 10
    rw [d1]; omega

/-- Layer 2's result array after its region is the specification applied to the arrays the region was entered with. -/
theorem array2 (c : Dev nD) :
    (dat2 V c).arrAt 3 cfg2.N = dense2 (V c main_v59) (V c main_arg7) (V c main_v60) :=
  (dat2 V c).arrAt_eq_of_cover 3 (dense2 (V c main_v59) (V c main_arg7) (V c main_v60)) (fun t _ => block2 V c t)
    (cover2)

end Cert.KernelIdeal.Layers

end
-- ==== Proof.RefDense.lean ====
/-
  The reference's three dense layers are the specification. Each is a `dot_general` contracting the features' columns with
  the weights' rows, the bias vector broadcast to every row and added, and (hidden layers) the maximum with a zero array:
  read at row `r` and column `q` this is `∑ k, X (r, k) * W (k, q) + bias q`, clamped, where `X` is the stage the layer reads.
-/
import proofs.«154838_j55413668053119_1_alg».proof.Proof.Gen.ReferenceIdeal.Read
import proofs.«154838_j55413668053119_1_alg».proof.Proof.DenseSpec

noncomputable section

namespace Cert.ReferenceIdeal.RefDense

open Cert.ReferenceIdeal Cert.ReferenceIdeal.Read Cert.DenseSpec Idealize.ShloMosaic Idealize.ShloMosaic.ValueIdx

/-- The reference's layer 0 — the product with the weights, the bias broadcast over the rows and added, the clamp at zero — is the
    specification applied to the stage before it, for any bias row `B` that holds the bias vector. -/
theorem layer0 (x0 : (⟨S800000, .i32⟩ : BufTy).Contents (Elt Ideal)) (x1 : (⟨S800000, .i32⟩ : BufTy).Contents (Elt Ideal)) (x3 : (⟨S1x256, .f32⟩ : BufTy).Contents (Elt Ideal)) (x4 : (⟨S256, .f32⟩ : BufTy).Contents (Elt Ideal))
    (B : (⟨2, ![1, 256]⟩ : Shape).Idx → EReal) (hB : ∀ q : Fin 256, B (ix2 (0 : Fin 1) q) = x4 (ix1 q)) :
    val_main_v34 (F := Ideal) x0 x1 x3 x4 = dense0 (val_main_v29 (F := Ideal) x0 x1) x3 B := by
  funext i
  rw [val_main_v34_apply, val_main_v33_apply, val_main_v30_apply, val_main_v32_apply, val_main_v31_apply,
    val_main_call0_v0_apply, val_main_call0_cst_apply]
  unfold dense0
  rw [hB]
  have el : ∀ k : Fin 1, lidx_main_v30 i k = ix2 (⟨(i 0).val, (i 0).isLt⟩ : Fin 50000) k := fun k => funext fun a => by
    match a with
    | ⟨0, _⟩ => rfl
    | ⟨1, _⟩ => rfl
  have er : ∀ k : Fin 1, ridx_main_v30 i k = ix2 k (⟨(i 1).val, (i 1).isLt⟩ : Fin 256) := fun k => funext fun a => by
    match a with
    | ⟨0, _⟩ => rfl
    | ⟨1, _⟩ => rfl
  have eb : idx_main_v31 (idx_main_v32 i) = ix1 (⟨(i 1).val, (i 1).isLt⟩ : Fin 256) := funext fun a => by
    match a with
    | ⟨0, _⟩ => rfl
  simp only [el, er, eb]
  rfl

/-- The reference's layer 1 — the product with the weights, the bias broadcast over the rows and added, the clamp at zero — is the
    specification applied to the stage before it, for any bias row `B` that holds the bias vector. -/
theorem layer1 (x0 : (⟨S800000, .i32⟩ : BufTy).Contents (Elt Ideal)) (x1 : (⟨S800000, .i32⟩ : BufTy).Contents (Elt Ideal)) (x3 : (⟨S1x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (B : (⟨2, ![1, 256]⟩ : Shape).Idx → EReal) (hB : ∀ q : Fin 256, B (ix2 (0 : Fin 1) q) = x6 (ix1 q)) :
    val_main_v53 (F := Ideal) x0 x1 x3 x4 x5 x6 = dense1 (val_main_v48 (F := Ideal) x0 x1 x3 x4) x5 B := by
  funext i
  rw [val_main_v53_apply, val_main_v52_apply, val_main_v49_apply, val_main_v51_apply, val_main_v50_apply,
    val_main_call1_v0_apply, val_main_call1_cst_apply]
  unfold dense1
  rw [hB]
  have el : ∀ k : Fin 256, lidx_main_v49 i k = ix2 (⟨(i 0).val, (i 0).isLt⟩ : Fin 50000) k := fun k => funext fun a => by
    match a with
    | ⟨0, _⟩ => rfl
    | ⟨1, _⟩ => rfl
  have er : ∀ k : Fin 256, ridx_main_v49 i k = ix2 k (⟨(i 1).val, (i 1).isLt⟩ : Fin 256) := fun k => funext fun a => by
    match a with
    | ⟨0, _⟩ => rfl
    | ⟨1, _⟩ => rfl
  have eb : idx_main_v50 (idx_main_v51 i) = ix1 (⟨(i 1).val, (i 1).isLt⟩ : Fin 256) := funext fun a => by
    match a with
    | ⟨0, _⟩ => rfl
  simp only [el, er, eb]
  rfl

/-- The reference's layer 2 — the product with the weights, the bias broadcast over the rows and added — is the
    specification applied to the stage before it, for any bias row `B` that holds the bias vector. -/
theorem layer2 (x0 : (⟨S800000, .i32⟩ : BufTy).Contents (Elt Ideal)) (x1 : (⟨S800000, .i32⟩ : BufTy).Contents (Elt Ideal)) (x2 : (⟨S50000, .i32⟩ : BufTy).Contents (Elt Ideal)) (x3 : (⟨S1x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x10, .f32⟩ : BufTy).Contents (Elt Ideal)) (x8 : (⟨S10, .f32⟩ : BufTy).Contents (Elt Ideal))
    (B : (⟨2, ![1, 10]⟩ : Shape).Idx → EReal) (hB : ∀ q : Fin 10, B (ix2 (0 : Fin 1) q) = x8 (ix1 q)) :
    val_main_v69 (F := Ideal) x0 x1 x2 x3 x4 x5 x6 x7 x8 = dense2 (val_main_v65 (F := Ideal) x0 x1 x2 x3 x4 x5 x6) x7 B := by
  funext i
  rw [val_main_v69_apply, val_main_v66_apply, val_main_v68_apply, val_main_v67_apply]
  unfold dense2
  rw [hB]
  have el : ∀ k : Fin 256, lidx_main_v66 i k = ix2 (⟨(i 0).val, (i 0).isLt⟩ : Fin 16) k := fun k => funext fun a => by
    match a with
    | ⟨0, _⟩ => rfl
    | ⟨1, _⟩ => rfl
  have er : ∀ k : Fin 256, ridx_main_v66 i k = ix2 k (⟨(i 1).val, (i 1).isLt⟩ : Fin 10) := fun k => funext fun a => by
    match a with
    | ⟨0, _⟩ => rfl
    | ⟨1, _⟩ => rfl
  have eb : idx_main_v67 (idx_main_v68 i) = ix1 (⟨(i 1).val, (i 1).isLt⟩ : Fin 10) := funext fun a => by
    match a with
    | ⟨0, _⟩ => rfl
  simp only [el, er, eb]
  rfl

end Cert.ReferenceIdeal.RefDense

end
-- ==== Proof.Stages.lean ====
/-
  The kernel's host stretches are the reference's. Before, between and after the three dense layers both programs apply
  the same host operations — the degrees by scatter-add, the normalisers, the gather along the edges' sources, the
  scatter-add into their destinations, the per-graph mean — to the same arguments; only the dense layers are spelt
  differently. So each array a layer of the kernel is entered with is the stage of the reference that its layer reads, and
  each layer's result is the reference's next stage. The chain ends at the result array.
-/
import proofs.«154838_j55413668053119_1_alg».proof.Proof.Gen.KernelIdeal.Frame
import proofs.«154838_j55413668053119_1_alg».proof.Proof.Gen.ReferenceIdeal.Read
import proofs.«154838_j55413668053119_1_alg».proof.Proof.Layers
import proofs.«154838_j55413668053119_1_alg».proof.Proof.RefDense
import Idealize.ShloMosaic.Lib.StableHlo.Run
import Idealize.ShloMosaic.Lib.ValueLayout

set_option maxRecDepth 16384

noncomputable section

namespace Cert.KernelIdeal.Stages

open Cert.KernelIdeal Cert.KernelIdeal.Gen Cert.KernelIdeal.Layers Cert.DenseSpec
open Cert.ReferenceIdeal.Read
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Argument 0 as launched, at the type the reference's stages take it. -/
abbrev a0 (c : Dev nD) : (⟨Cert.ReferenceIdeal.S800000, .i32⟩ : BufTy).Contents (Elt Ideal) := m ((c.tc : Thread nD τ).loc main_arg0)
/-- Argument 1 as launched, at the type the reference's stages take it. -/
abbrev a1 (c : Dev nD) : (⟨Cert.ReferenceIdeal.S800000, .i32⟩ : BufTy).Contents (Elt Ideal) := m ((c.tc : Thread nD τ).loc main_arg1)
/-- Argument 2 as launched, at the type the reference's stages take it. -/
abbrev a2 (c : Dev nD) : (⟨Cert.ReferenceIdeal.S50000, .i32⟩ : BufTy).Contents (Elt Ideal) := m ((c.tc : Thread nD τ).loc main_arg2)
/-- Argument 3 as launched, at the type the reference's stages take it. -/
abbrev a3 (c : Dev nD) : (⟨Cert.ReferenceIdeal.S1x256, .f32⟩ : BufTy).Contents (Elt Ideal) := m ((c.tc : Thread nD τ).loc main_arg3)
/-- Argument 4 as launched, at the type the reference's stages take it. -/
abbrev a4 (c : Dev nD) : (⟨Cert.ReferenceIdeal.S256, .f32⟩ : BufTy).Contents (Elt Ideal) := m ((c.tc : Thread nD τ).loc main_arg4)
/-- Argument 5 as launched, at the type the reference's stages take it. -/
abbrev a5 (c : Dev nD) : (⟨Cert.ReferenceIdeal.S256x256, .f32⟩ : BufTy).Contents (Elt Ideal) := m ((c.tc : Thread nD τ).loc main_arg5)
/-- Argument 6 as launched, at the type the reference's stages take it. -/
abbrev a6 (c : Dev nD) : (⟨Cert.ReferenceIdeal.S256, .f32⟩ : BufTy).Contents (Elt Ideal) := m ((c.tc : Thread nD τ).loc main_arg6)
/-- Argument 7 as launched, at the type the reference's stages take it. -/
abbrev a7 (c : Dev nD) : (⟨Cert.ReferenceIdeal.S256x10, .f32⟩ : BufTy).Contents (Elt Ideal) := m ((c.tc : Thread nD τ).loc main_arg7)
/-- Argument 8 as launched, at the type the reference's stages take it. -/
abbrev a8 (c : Dev nD) : (⟨Cert.ReferenceIdeal.S10, .f32⟩ : BufTy).Contents (Elt Ideal) := m ((c.tc : Thread nD τ).loc main_arg8)

/-! ## What a boundary holds at an argument, and at the normalisers -/

/-- Before the first layer the edge sources are as launched: no host operation writes an argument. -/
theorem first_arg0 (c : Dev nD) : W1 m ρ c (Proc.devRef .tc main_arg0) = a0 m c := by
  show StableHlo.after hostOps0 (W0 m ρ c) (Proc.devRef .tc main_arg0) = _
  after_results_simp <;> rfl
/-- And so are the edge destinations. -/
theorem first_arg1 (c : Dev nD) : W1 m ρ c (Proc.devRef .tc main_arg1) = a1 m c := by
  show StableHlo.after hostOps0 (W0 m ρ c) (Proc.devRef .tc main_arg1) = _
  after_results_simp <;> rfl
/-- And the graph identifiers. -/
theorem first_arg2 (c : Dev nD) : W1 m ρ c (Proc.devRef .tc main_arg2) = a2 m c := by
  show StableHlo.after hostOps0 (W0 m ρ c) (Proc.devRef .tc main_arg2) = _
  after_results_simp <;> rfl

set_option maxHeartbeats 4000000 in
/-- The source normaliser, out-degree clamped at one to the power -1/2, as a column: the reference's stage. -/
theorem first_norm_src (c : Dev nD) : W1 m ρ c (Proc.devRef .tc main_v11) = val_main_v11 (F := Ideal) (a0 m c) := by
  show StableHlo.after hostOps0 (W0 m ρ c) (Proc.devRef .tc main_v11) = _
  after_results_simp
  rfl

set_option maxHeartbeats 4000000 in
/-- The destination normaliser, in-degree clamped at one to the power -1/2, as a column: the reference's stage. -/
theorem first_norm_dst (c : Dev nD) : W1 m ρ c (Proc.devRef .tc main_v16) = val_main_v16 (F := Ideal) (a1 m c) := by
  show StableHlo.after hostOps0 (W0 m ρ c) (Proc.devRef .tc main_v16) = _
  after_results_simp
  rfl

/-! ## The first layer -/

set_option maxHeartbeats 4000000 in
/-- The first layer's feature array: the in-degrees, normalised at the source, gathered along the edges, summed into the
    destinations and normalised there — the reference's stage. -/
theorem entry0_features (c : Dev nD) : V1 m ρ c main_v29 = val_main_v29 (F := Ideal) (a0 m c) (a1 m c) := by
  show StableHlo.after hostOps0 (W0 m ρ c) (Proc.devRef .tc main_v29) = _
  after_results_simp
  rfl

/-- Its weights are the argument. -/
theorem entry0_weights (c : Dev nD) : V1 m ρ c main_arg3 = a3 m c := by
  show StableHlo.after hostOps0 (W0 m ρ c) (Proc.devRef .tc main_arg3) = _
  after_results_simp <;> rfl

/-- Its bias row is the bias vector with a unit axis in front. -/
theorem entry0_bias (c : Dev nD) (q : Fin 256) : V1 m ρ c main_v30 (ix2 (0 : Fin 1) q) = a4 m c (ix1 q) := by
  show StableHlo.after hostOps0 (W0 m ρ c) (Proc.devRef .tc main_v30) (ix2 (0 : Fin 1) q) = _
  after_results_simp
  exact shapeCast_a_1a_apply (a := 256) _ shapeCasts_S256_S1x256 (0 : Fin 1) q

/-- After the first layer its result array is the reference's first hidden stage. -/
theorem exit0_result (c : Dev nD) :
    W2 m ρ c (Proc.devRef .tc main_v31) = val_main_v34 (F := Ideal) (a0 m c) (a1 m c) (a3 m c) (a4 m c) := by
  refine (W2_arr m ρ c 3).trans ((array0 (V1 m ρ) c).trans ?_)
  rw [entry0_features, entry0_weights]
  exact (Cert.ReferenceIdeal.RefDense.layer0 (a0 m c) (a1 m c) (a3 m c) (a4 m c) (V1 m ρ c main_v30) (entry0_bias m ρ c)).symm

/-! ## Between the first and the second layer -/

/-- The first layer's region writes only its result: the edge sources are still as launched. -/
theorem second_arg0 (c : Dev nD) : W2 m ρ c (Proc.devRef .tc main_arg0) = a0 m c :=
  (W2_of_ne m ρ c main_arg0 (by decide)).trans (first_arg0 m ρ c)
theorem second_arg1 (c : Dev nD) : W2 m ρ c (Proc.devRef .tc main_arg1) = a1 m c :=
  (W2_of_ne m ρ c main_arg1 (by decide)).trans (first_arg1 m ρ c)
theorem second_arg2 (c : Dev nD) : W2 m ρ c (Proc.devRef .tc main_arg2) = a2 m c :=
  (W2_of_ne m ρ c main_arg2 (by decide)).trans (first_arg2 m ρ c)
theorem second_norm_src (c : Dev nD) : W2 m ρ c (Proc.devRef .tc main_v11) = val_main_v11 (F := Ideal) (a0 m c) :=
  (W2_of_ne m ρ c main_v11 (by decide)).trans (first_norm_src m ρ c)
theorem second_norm_dst (c : Dev nD) : W2 m ρ c (Proc.devRef .tc main_v16) = val_main_v16 (F := Ideal) (a1 m c) :=
  (W2_of_ne m ρ c main_v16 (by decide)).trans (first_norm_dst m ρ c)

set_option maxHeartbeats 4000000 in
/-- The second layer's feature array: the first hidden stage normalised at the source, gathered along the edges, summed
    into the destinations and normalised there — the reference's stage. -/
theorem entry1_features (c : Dev nD) :
    V3 m ρ c main_v45 = val_main_v48 (F := Ideal) (a0 m c) (a1 m c) (a3 m c) (a4 m c) := by
  show StableHlo.after hostOps1 (W2 m ρ c) (Proc.devRef .tc main_v45) = _
  after_results_simp
  rw [exit0_result, second_norm_src, second_norm_dst, second_arg0, second_arg1]
  rfl

/-- Its weights are the argument: neither the first region nor a host operation writes it. -/
theorem entry1_weights (c : Dev nD) : V3 m ρ c main_arg5 = a5 m c := by
  show StableHlo.after hostOps1 (W2 m ρ c) (Proc.devRef .tc main_arg5) = _
  after_results_simp
  refine (W2_of_ne m ρ c main_arg5 (by decide)).trans ?_
  show StableHlo.after hostOps0 (W0 m ρ c) (Proc.devRef .tc main_arg5) = _
  after_results_simp <;> rfl

/-- Its bias row is the bias vector with a unit axis in front. -/
theorem entry1_bias (c : Dev nD) (q : Fin 256) : V3 m ρ c main_v46 (ix2 (0 : Fin 1) q) = a6 m c (ix1 q) := by
  show StableHlo.after hostOps1 (W2 m ρ c) (Proc.devRef .tc main_v46) (ix2 (0 : Fin 1) q) = _
  after_results_simp
  have h6 : W2 m ρ c (Proc.devRef .tc main_arg6) = a6 m c := by
    refine (W2_of_ne m ρ c main_arg6 (by decide)).trans ?_
    show StableHlo.after hostOps0 (W0 m ρ c) (Proc.devRef .tc main_arg6) = _
    after_results_simp <;> rfl
  rw [h6]
  exact shapeCast_a_1a_apply (a := 256) _ shapeCasts_S256_S1x256 (0 : Fin 1) q

/-- After the second layer its result array is the reference's second hidden stage. -/
theorem exit1_result (c : Dev nD) :
    W4 m ρ c (Proc.devRef .tc main_v47)
      = val_main_v53 (F := Ideal) (a0 m c) (a1 m c) (a3 m c) (a4 m c) (a5 m c) (a6 m c) := by
  refine (W4_arr m ρ c 3).trans ((array1 (V3 m ρ) c).trans ?_)
  rw [entry1_features, entry1_weights]
  exact (Cert.ReferenceIdeal.RefDense.layer1 (a0 m c) (a1 m c) (a3 m c) (a4 m c) (a5 m c) (a6 m c) (V3 m ρ c main_v46)
    (entry1_bias m ρ c)).symm

/-! ## Between the second layer and the classifier -/

/-- The graph identifiers are still as launched. -/
theorem third_arg2 (c : Dev nD) : W4 m ρ c (Proc.devRef .tc main_arg2) = a2 m c := by
  refine (W4_of_ne m ρ c main_arg2 (by decide)).trans ?_
  show StableHlo.after hostOps1 (W2 m ρ c) (Proc.devRef .tc main_arg2) = _
  after_results_simp
  exact second_arg2 m ρ c

set_option maxHeartbeats 4000000 in
/-- The classifier's feature array: the second hidden stage summed per graph and divided by the graph's node count
    clamped at one — the reference's stage. -/
theorem entry2_features (c : Dev nD) :
    V5 m ρ c main_v59 = val_main_v65 (F := Ideal) (a0 m c) (a1 m c) (a2 m c) (a3 m c) (a4 m c) (a5 m c) (a6 m c) := by
  show StableHlo.after hostOps2 (W4 m ρ c) (Proc.devRef .tc main_v59) = _
  after_results_simp
  rw [exit1_result, third_arg2]
  rfl

/-- An argument no region and no host operation writes is, at the classifier's entry, as launched. -/
theorem entry2_weights (c : Dev nD) : V5 m ρ c main_arg7 = a7 m c := by
  show StableHlo.after hostOps2 (W4 m ρ c) (Proc.devRef .tc main_arg7) = _
  after_results_simp
  refine (W4_of_ne m ρ c main_arg7 (by decide)).trans ?_
  show StableHlo.after hostOps1 (W2 m ρ c) (Proc.devRef .tc main_arg7) = _
  after_results_simp
  refine (W2_of_ne m ρ c main_arg7 (by decide)).trans ?_
  show StableHlo.after hostOps0 (W0 m ρ c) (Proc.devRef .tc main_arg7) = _
  after_results_simp <;> rfl

/-- The classifier's bias row is the bias vector with a unit axis in front. -/
theorem entry2_bias (c : Dev nD) (q : Fin 10) : V5 m ρ c main_v60 (ix2 (0 : Fin 1) q) = a8 m c (ix1 q) := by
  show StableHlo.after hostOps2 (W4 m ρ c) (Proc.devRef .tc main_v60) (ix2 (0 : Fin 1) q) = _
  after_results_simp
  have h8 : W4 m ρ c (Proc.devRef .tc main_arg8) = a8 m c := by
    refine (W4_of_ne m ρ c main_arg8 (by decide)).trans ?_
    show StableHlo.after hostOps1 (W2 m ρ c) (Proc.devRef .tc main_arg8) = _
    after_results_simp
    refine (W2_of_ne m ρ c main_arg8 (by decide)).trans ?_
    show StableHlo.after hostOps0 (W0 m ρ c) (Proc.devRef .tc main_arg8) = _
    after_results_simp <;> rfl
  rw [h8]
  exact shapeCast_a_1a_apply (a := 10) _ shapeCasts_S10_S1x10 (0 : Fin 1) q

/-! ## The result -/

/-- THE KERNEL'S RESULT: after the classifier's region the result array is the reference's last stage, the whole
    computation as one function of the nine arguments. -/
theorem result_eq (c : Dev nD) :
    W6 m ρ c (Proc.devRef .tc main_v61)
      = val_main_v69 (F := Ideal) (a0 m c) (a1 m c) (a2 m c) (a3 m c) (a4 m c) (a5 m c) (a6 m c) (a7 m c) (a8 m c) := by
  refine (W6_arr m ρ c 3).trans ((array2 (V5 m ρ) c).trans ?_)
  rw [entry2_features, entry2_weights]
  exact (Cert.ReferenceIdeal.RefDense.layer2 (a0 m c) (a1 m c) (a2 m c) (a3 m c) (a4 m c) (a5 m c) (a6 m c) (a7 m c) (a8 m c)
    (V5 m ρ c main_v60) (entry2_bias m ρ c)).symm

end Cert.KernelIdeal.Stages

end
-- ==== Proof.lean ====
/-
  A graph convolution network in three dense layers, against its jnp reference, over the extended reals.

  Both programs compute, from the edge lists `src`, `dst` and the graph identifiers: the in- and out-degrees (scatter-adds
  of ones), the normalisers `max(deg, 1)^(-1/2)`, and then twice "scale by the source normaliser, gather along the edges'
  sources, sum into the edges' destinations, scale by the destination normaliser, apply a dense layer and clamp at zero";
  then the per-graph mean of the node features and a last dense layer. The host operations are the same in both programs,
  line for line and literal for literal. They differ only in how a dense layer `X · W + b` is spelt: the kernel runs it as a
  grid of row blocks, each a matrix product into a zero accumulator with the operands narrowed to bf16 on the way — the
  identity on extended reals — plus the bias row broadcast over the block; the reference as one `dot_general` plus the bias
  vector broadcast over all rows. Read at an index both are `∑ k, X (r, k) * W (k, q) + b q` (clamped at zero in the hidden
  layers): the same finite sum with the same terms, so no law of the extended reals beyond reading a product as that sum is
  needed, and the finiteness of the inputs is never used.

  The proof: the kernel's run ends with the result array at the last boundary's contents (KernelRun); each layer's blocks
  tile its result array, which is therefore one whole-array function, the dense-layer specification, of the arrays the
  region was entered with (DenseSpec, DensePayload, Layers); the reference's layers are the same specification (RefDense);
  the arrays each region is entered with are the reference's stages, because the host stretches coincide (Stages). So the
  kernel's result array is the reference's last stage of the same arguments.
-/
import proofs.«154838_j55413668053119_1_alg».proof.Defs
import proofs.«154838_j55413668053119_1_alg».proof.Proof.Gen.Kernel
import proofs.«154838_j55413668053119_1_alg».proof.Proof.Gen.Kernel.Skeleton
import proofs.«154838_j55413668053119_1_alg».proof.Proof.Gen.Kernel.Launch
import proofs.«154838_j55413668053119_1_alg».proof.Proof.Gen.Kernel.Points
import proofs.«154838_j55413668053119_1_alg».proof.Proof.Gen.Kernel.Frame
import proofs.«154838_j55413668053119_1_alg».proof.Proof.Gen.KernelIdeal
import proofs.«154838_j55413668053119_1_alg».proof.Proof.Gen.KernelIdeal.Skeleton
import proofs.«154838_j55413668053119_1_alg».proof.Proof.Gen.KernelIdeal.Launch
import proofs.«154838_j55413668053119_1_alg».proof.Proof.Gen.KernelIdeal.Points
import proofs.«154838_j55413668053119_1_alg».proof.Proof.Gen.KernelIdeal.Frame
import proofs.«154838_j55413668053119_1_alg».proof.Proof.Gen.ReferenceIdeal
import proofs.«154838_j55413668053119_1_alg».proof.Proof.Gen.Pre_finite_inputs
import proofs.«154838_j55413668053119_1_alg».proof.Proof.Gen.ReferenceIdeal.Run
import proofs.«154838_j55413668053119_1_alg».proof.Proof.Gen.ReferenceIdeal.Read
import proofs.«154838_j55413668053119_1_alg».proof.Proof.KernelRun
import proofs.«154838_j55413668053119_1_alg».proof.Proof.Stages
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame of its three regions. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read at the ideal instance. -/
theorem preserves : Cert.preserves_Kernel_KernelIdeal := trivial

/-- From memories agreeing on the nine arguments both programs run, and the kernel's result array — the third layer's
    write-backs over what the host stretches and the first two layers left — is the reference's result: its last stage
    of the same arguments. -/
theorem algebraic : Cert.algebraic_KernelIdeal_ReferenceIdeal := by
  intro m ρ m' ρ' _ hagree
  refine ⟨fun c => Cert.KernelIdeal.Gen.W6 m ρ c (Proc.devRef .tc Cert.KernelIdeal.main_v61),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v69 m' c = Cert.KernelIdeal.Gen.W6 m ρ c (Proc.devRef .tc Cert.KernelIdeal.main_v61)
  rw [Cert.ReferenceIdeal.Read.val_main_v69_eq m' c, Cert.KernelIdeal.Stages.result_eq m ρ c]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
